-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x200x512 : Shape := ⟨3, ![2048, 200, 512]⟩
abbrev S2048x512 : Shape := ⟨2, ![2048, 512]⟩
abbrev S512x512 : Shape := ⟨2, ![512, 512]⟩
abbrev S1x512 : Shape := ⟨2, ![1, 512]⟩
abbrev S2x512 : Shape := ⟨2, ![2, 512]⟩
abbrev S_ : Shape := ⟨0, ![]⟩

class Facts : Prop where
  bcast_S_S2048x200x512 : S_.BroadcastsInDim S2048x200x512 (![] : Fin 0 → Fin S2048x200x512.rank)
  reducesTo_S2048x200x512_S_d0_1_2 : S2048x200x512.ReducesTo [0, 1, 2] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512x512 : S_.BroadcastsInDim S512x512 (![] : Fin 0 → Fin S512x512.rank)
  reducesTo_S512x512_S_d0_1 : S512x512.ReducesTo [0, 1] S_
  bcast_S_S1x512 : S_.BroadcastsInDim S1x512 (![] : Fin 0 → Fin S1x512.rank)
  reducesTo_S1x512_S_d0_1 : S1x512.ReducesTo [0, 1] S_
  bcast_S_S2x512 : S_.BroadcastsInDim S2x512 (![] : Fin 0 → Fin S2x512.rank)
  reducesTo_S2x512_S_d0_1 : S2x512.ReducesTo [0, 1] S_

variable [Facts]

def fn_part1 {F : FTy → Type} [FloatOps F] (main_arg4 : FVec F S1x512 .f32) (main_arg5 : FVec F S2x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S2x512 .f32 := Host.absf main_arg5
  let main_cst_8 : FVec F S_ .f32 := constant S_ .f32 0x7F800000#32
  let main_v25 : FVec F S2x512 .f32 := broadcastInDim S2x512 ![] bcast_S_S2x512 main_cst_8
  let main_v26 : IVec S2x512 1 := cmpf .olt main_v24 main_v25
  let main_c_9 : IVec S_ 1 := constantI S_ 1 1#1
  let main_v27 : IVec S_ 1 := (fun x v => Host.reduce IntOp.andi x v reducesTo_S2x512_S_d0_1 h_S_) main_v26 main_c_9
  let main_v28 : IVec S_ 1 := andi main_v23 main_v27
  main_v28

def fn {F : FTy → Type} [FloatOps F] (main_arg0 : FVec F S2048x200x512 .f32) (main_arg1 : FVec F S2048x512 .f32) (main_arg2 : FVec F S512x512 .f32) (main_arg3 : FVec F S512x512 .f32) (main_arg4 : FVec F S1x512 .f32) (main_arg5 : FVec F S2x512 .f32) : IVec S_ 1 :=
  let main_v0 : FVec F S2048x200x512 .f32 := Host.absf main_arg0
  let main_cst : FVec F S_ .f32 := constant S_ .f32 0x7F800000#32
  let main_v1 : FVec F S2048x200x512 .f32 := broadcastInDim S2048x200x512 ![] bcast_S_S2048x200x512 main_cst
  let main_v2 : IVec S2048x200x512 1 := cmpf .olt main_v0 main_v1
  let main_c : IVec S_ 1 := constantI S_ 1 1#1
  let main_v3 : IVec S_ 1 := (fun x v => Host.reduce IntOp.andi x v reducesTo_S2048x200x512_S_d0_1_2 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_v13 main_v16
-- ==== Kernel.lean ====
abbrev S2048x200x512 : Shape := ⟨3, ![2048, 200, 512]⟩
abbrev S2048x512 : Shape := ⟨2, ![2048, 512]⟩
abbrev S512x512 : Shape := ⟨2, ![512, 512]⟩
abbrev S1x512 : Shape := ⟨2, ![1, 512]⟩
abbrev S2x512 : Shape := ⟨2, ![2, 512]⟩
abbrev S2048x2 : Shape := ⟨2, ![2048, 2]⟩
abbrev S16x200x512 : Shape := ⟨3, ![16, 200, 512]⟩
abbrev S16x512 : Shape := ⟨2, ![16, 512]⟩
abbrev S16x2 : Shape := ⟨2, ![16, 2]⟩
abbrev S3200x512 : Shape := ⟨2, ![3200, 512]⟩
abbrev S16x1x512 : Shape := ⟨3, ![16, 1, 512]⟩
abbrev S512 : Shape := ⟨1, ![512]⟩
abbrev S1x1x512 : Shape := ⟨3, ![1, 1, 512]⟩
abbrev S16x200 : Shape := ⟨2, ![16, 200]⟩
abbrev S16 : Shape := ⟨1, ![16]⟩
abbrev S16x1 : Shape := ⟨2, ![16, 1]⟩
abbrev S16x200x1 : Shape := ⟨3, ![16, 200, 1]⟩

abbrev nBuf : Space → Nat
  | .hbm => 8
  | .vmem => 10
  | .smem => 0
  | _ => 0

abbrev bufTy : (tb : Table) → Fin (tcTables nBuf tb) → BufTy
  | .hbm, ⟨0, _⟩ => ⟨S2048x200x512, .f32⟩
  | .hbm, ⟨1, _⟩ => ⟨S2048x512, .f32⟩
  | .hbm, ⟨2, _⟩ => ⟨S512x512, .f32⟩
  | .hbm, ⟨3, _⟩ => ⟨S512x512, .f32⟩
  | .hbm, ⟨4, _⟩ => ⟨S1x512, .f32⟩
  | .hbm, ⟨5, _⟩ => ⟨S2x512, .f32⟩
  | .hbm, ⟨6, _⟩ => ⟨S512x512, .bf16⟩
  | .hbm, ⟨7, _⟩ => ⟨S2048x2, .f32⟩
  | .local _ .vmem, ⟨0, _⟩ => ⟨S16x200x512, .f32⟩
  | .local _ .vmem, ⟨1, _⟩ => ⟨S16x200x512, .f32⟩
  | .local _ .vmem, ⟨2, _⟩ => ⟨S16x512, .f32⟩
  | .local _ .vmem, ⟨3, _⟩ => ⟨S16x512, .f32⟩
  | .local _ .vmem, ⟨4, _⟩ => ⟨S512x512, .bf16⟩
  | .local _ .vmem, ⟨5, _⟩ => ⟨S512x512, .f32⟩
  | .local _ .vmem, ⟨6, _⟩ => ⟨S1x512, .f32⟩
  | .local _ .vmem, ⟨7, _⟩ => ⟨S2x512, .f32⟩
  | .local _ .vmem, ⟨8, _⟩ => ⟨S16x2, .f32⟩
  | .local _ .vmem, ⟨9, _⟩ => ⟨S16x2, .f32⟩
  | _, _ => ⟨S2048x200x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x200x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S16x200x512_S16x200x512_0_0_0 : ∀ a, (![0, 0, 0] : Fin 3 → Nat) a + S16x200x512.size a ≤ S16x200x512.size a
  h_S16x200x512 : 0 < S16x200x512.numel
  inb_S16x512_S16x512_0_0 : ∀ a, (![0, 0] : Fin 2 → Nat) a + S16x512.size a ≤ S16x512.size a
  h_S16x512 : 0 < S16x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  inb_S2x512_S2x512_0_0 : ∀ a, (![0, 0] : Fin 2 → Nat) a + S2x512.size a ≤ S2x512.size a
  h_S2x512 : 0 < S2x512.numel
  shapeCasts_S16x200x512_S3200x512 : S16x200x512.ShapeCasts S3200x512
  shapeCasts_S3200x512_S16x200x512 : S3200x512.ShapeCasts S16x200x512
  shapeCasts_S16x512_S16x1x512 : S16x512.ShapeCasts S16x1x512
  broadcasts_S16x1x512_S16x200x512 : S16x1x512.Broadcasts S16x200x512
  shapeCasts_S1x512_S512 : S1x512.ShapeCasts S512
  shapeCasts_S512_S1x1x512 : S512.ShapeCasts S1x1x512
  broadcasts_S1x1x512_S16x200x512 : S1x1x512.Broadcasts S16x200x512
  reduces_S16x200x512_S16x200 : S16x200x512.Reduces [2] S16x200
  reduces_S16x200_S16 : S16x200.Reduces [1] S16
  shapeCasts_S16_S16x1 : S16.ShapeCasts S16x1
  broadcasts_S16x1_S16x200 : S16x1.Broadcasts S16x200
  shapeCasts_S16x200_S16x200x1 : S16x200.ShapeCasts S16x200x1
  broadcasts_S16x200x1_S16x200x512 : S16x200x1.Broadcasts S16x200x512
  reduces_S16x200x512_S16x512 : S16x200x512.Reduces [1] S16x512
  reduces_S16x2_S16 : S16x2.Reduces [1] S16
  broadcasts_S16x1_S16x2 : S16x1.Broadcasts S16x2
  inb_S16x2_S16x2_0_0 : ∀ a, (![0, 0] : Fin 2 → Nat) a + S16x2.size a ≤ S16x2.size a
  h_S16x2 : 0 < S16x2.numel
  dot_S3200x512_S512x512_S3200x512_1_1_0_0_n_n_wf : DotDims.WF S3200x512 S512x512 S3200x512 [1] [1] [0] [0] [] []
  dot_S16x512_S512x512_S16x512_1_1_0_0_n_n_wf : DotDims.WF S16x512 S512x512 S16x512 [1] [1] [0] [0] [] []
  dot_S16x512_S2x512_S16x2_1_1_0_0_n_n_wf : DotDims.WF S16x512 S2x512 S16x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x200x512.size a ≤ S2048x200x512.size a
  hwx0_0 : ∀ i : grid0.Coords, EltTy.bits .f32 = 32 ∨ (Rect.block (s := S2048x200x512) S16x200x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S2048x512.size a
  hwx0_1 : ∀ i : grid0.Coords, EltTy.bits .f32 = 32 ∨ (Rect.block (s := S2048x512) S16x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512.size a ≤ S2x512.size a
  hwx0_5 : ∀ i : grid0.Coords, EltTy.bits .f32 = 32 ∨ (Rect.block (s := S2x512) S2x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x2.size a ≤ S2048x2.size a
  hwx0_6 : ∀ i : grid0.Coords, EltTy.bits .f32 = 32 ∨ (Rect.block (s := S2048x2) S16x2.size (cc0_transform_6 i) (hinb0_6 i)).WholeWords (EltTy.packing .f32)

variable [Facts₀]

def dot_S3200x512_S512x512_S3200x512_1_1_0_0_n_n : DotDims S3200x512 S512x512 S3200x512 where
  lhsContracting := [1]
  rhsContracting := [1]
  lhsNonContracting := [0]
  rhsNonContracting := [0]
  lhsBatch := []
  rhsBatch := []
  wf := dot_S3200x512_S512x512_S3200x512_1_1_0_0_n_n_wf
def dot_S16x512_S512x512_S16x512_1_1_0_0_n_n : DotDims S16x512 S512x512 S16x512 where
  lhsContracting := [1]
  rhsContracting := [1]
  lhsNonContracting := [0]
  rhsNonContracting := [0]
  lhsBatch := []
  rhsBatch := []
  wf := dot_S16x512_S512x512_S16x512_1_1_0_0_n_n_wf
def dot_S16x512_S2x512_S16x2_1_1_0_0_n_n : DotDims S16x512 S2x512 S16x2 where
  lhsContracting := [1]
  rhsContracting := [1]
  lhsNonContracting := [0]
  rhsNonContracting := [0]
  lhsBatch := []
  rhsBatch := []
  wf := dot_S16x512_S2x512_S16x2_1_1_0_0_n_n_wf

abbrev win0_0 : Pipeline.Window sig grid0 :=
  Pipeline.Window.ofSpec (Memref.whole main_arg0) S16x200x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S16x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x200x512 : Shape := ⟨3, ![2048, 200, 512]⟩
abbrev S2048x512 : Shape := ⟨2, ![2048, 512]⟩
abbrev S512x512 : Shape := ⟨2, ![512, 512]⟩
abbrev S1x512 : Shape := ⟨2, ![1, 512]⟩
abbrev S2x512 : Shape := ⟨2, ![2, 512]⟩
abbrev S2048x1x512 : Shape := ⟨3, ![2048, 1, 512]⟩
abbrev S2048x200x1 : Shape := ⟨3, ![2048, 200, 1]⟩
abbrev S_ : Shape := ⟨0, ![]⟩
abbrev S2048x1 : Shape := ⟨2, ![2048, 1]⟩
abbrev S2048x1x1 : Shape := ⟨3, ![2048, 1, 1]⟩
abbrev S2048x2 : Shape := ⟨2, ![2048, 2]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S2048x200x512, .f32⟩
  | .hbm, ⟨1, _⟩ => ⟨S2048x512, .f32⟩
  | .hbm, ⟨2, _⟩ => ⟨S512x512, .f32⟩
  | .hbm, ⟨3, _⟩ => ⟨S512x512, .f32⟩
  | .hbm, ⟨4, _⟩ => ⟨S1x512, .f32⟩
  | .hbm, ⟨5, _⟩ => ⟨S2x512, .f32⟩
  | .hbm, ⟨6, _⟩ => ⟨S2048x200x512, .f32⟩
  | .hbm, ⟨7, _⟩ => ⟨S2048x512, .f32⟩
  | .hbm, ⟨8, _⟩ => ⟨S2048x1x512, .f32⟩
  | .hbm, ⟨9, _⟩ => ⟨S2048x200x512, .f32⟩
  | .hbm, ⟨10, _⟩ => ⟨S2048x200x512, .f32⟩
  | .hbm, ⟨11, _⟩ => ⟨S2048x200x512, .f32⟩
  | .hbm, ⟨12, _⟩ => ⟨S2048x200x1, .f32⟩
  | .hbm, ⟨13, _⟩ => ⟨S_, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1x1, .f32⟩
  | .hbm, ⟨19, _⟩ => ⟨S2048x200x1, .f32⟩
  | .hbm, ⟨20, _⟩ => ⟨S2048x200x1, .f32⟩
  | .hbm, ⟨21, _⟩ => ⟨S2048x200x1, .f32⟩
  | .hbm, ⟨22, _⟩ => ⟨S_, .f32⟩
  | .hbm, ⟨23, _⟩ => ⟨S2048x1, .f32⟩
  | .hbm, ⟨24, _⟩ => ⟨S2048x1x1, .f32⟩
  | .hbm, ⟨25, _⟩ => ⟨S2048x200x1, .f32⟩
  | .hbm, ⟨26, _⟩ => ⟨S2048x200x1, .f32⟩
  | .hbm, ⟨27, _⟩ => ⟨S2048x200x512, .f32⟩
  | .hbm, ⟨28, _⟩ => ⟨S2048x200x512, .f32⟩
  | .hbm, ⟨29, _⟩ => ⟨S_, .f32⟩
  | .hbm, ⟨30, _⟩ => ⟨S2048x512, .f32⟩
  | .hbm, ⟨31, _⟩ => ⟨S2048x2, .f32⟩
  | .hbm, ⟨32, _⟩ => ⟨S_, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2048x2, .f32⟩
  | .hbm, ⟨39, _⟩ => ⟨S2048x2, .f32⟩
  | .hbm, ⟨40, _⟩ => ⟨S2048x2, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x2, .f32⟩
  | .hbm, ⟨45, _⟩ => ⟨S2048x2, .f32⟩
  | _, _ => ⟨S2048x200x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S2048x512_S2048x1x512_0_2 : S2048x512.BroadcastsInDim S2048x1x512 (![0, 2] : Fin 2 → Fin S2048x1x512.rank)
  bcast_S2048x1x512_S2048x200x512_0_1_2 : S2048x1x512.BroadcastsInDim S2048x200x512 (![0, 1, 2] : Fin 3 → Fin S2048x200x512.rank)
  reducesTo_S2048x200x1_S2048x1_d1 : S2048x200x1.ReducesTo [1] S2048x1
  h_S_ : 0 < S_.numel
  bcast_S_S2048x1 : S_.BroadcastsInDim S2048x1 (![] : Fin 0 → Fin S2048x1.rank)
  bcast_S2048x1_S2048x1x1_0_2 : S2048x1.BroadcastsInDim S2048x1x1 (![0, 2] : Fin 2 → Fin S2048x1x1.rank)
  bcast_S2048x1x1_S2048x200x1_0_1_2 : S2048x1x1.BroadcastsInDim S2048x200x1 (![0, 1, 2] : Fin 3 → Fin S2048x200x1.rank)
  bcast_S2048x200x1_S2048x200x512_0_1_2 : S2048x200x1.BroadcastsInDim S2048x200x512 (![0, 1, 2] : Fin 3 → Fin S2048x200x512.rank)
  reducesTo_S2048x200x512_S2048x512_d1 : S2048x200x512.ReducesTo [1] S2048x512
  reducesTo_S2048x2_S2048_d1 : S2048x2.ReducesTo [1] S2048
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x2_0_1 : S2048x1.BroadcastsInDim S2048x2 (![0, 1] : Fin 2 → Fin S2048x2.rank)
  dot_S2048x200x512_S512x512_S2048x200x512_2_1_01_0_n_n_wf : DotDims.WF S2048x200x512 S512x512 S2048x200x512 [2] [1] [0, 1] [0] [] []
  dot_S2048x512_S512x512_S2048x512_1_1_0_0_n_n_wf : DotDims.WF S2048x512 S512x512 S2048x512 [1] [1] [0] [0] [] []
  dot_S2048x200x512_S1x512_S2048x200x1_2_1_01_0_n_n_wf : DotDims.WF S2048x200x512 S1x512 S2048x200x1 [2] [1] [0, 1] [0] [] []
  dot_S2048x512_S2x512_S2048x2_1_1_0_0_n_n_wf : DotDims.WF S2048x512 S2x512 S2048x2 [1] [1] [0] [0] [] []

variable [Facts₀]

def dot_S2048x200x512_S512x512_S2048x200x512_2_1_01_0_n_n : DotDims S2048x200x512 S512x512 S2048x200x512 where
  lhsContracting := [2]
  rhsContracting := [1]
  lhsNonContracting := [0, 1]
  rhsNonContracting := [0]
  lhsBatch := []
  rhsBatch := []
  wf := dot_S2048x200x512_S512x512_S2048x200x512_2_1_01_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x200x512_S1x512_S2048x200x1_2_1_01_0_n_n : DotDims S2048x200x512 S1x512 S2048x200x1 where
  lhsContracting := [2]
  rhsContracting := [1]
  lhsNonContracting := [0, 1]
  rhsNonContracting := [0]
  lhsBatch := []
  rhsBatch := []
  wf := dot_S2048x200x512_S1x512_S2048x200x1_2_1_01_0_n_n_wf
def dot_S2048x512_S2x512_S2048x2_1_1_0_0_n_n : DotDims S2048x512 S2x512 S2048x2 where
  lhsContracting := [1]
  rhsContracting := [1]
  lhsNonContracting := [0]
  rhsNonContracting := [0]
  lhsBatch := []
  rhsBatch := []
  wf := dot_S2048x512_S2x512_S2048x2_1_1_0_0_n_n_wf

class Facts : Prop extends Facts₀ where

variable [Facts]
-- ==== Proof.Spec.lean ====
/-
  The function both programs compute, for ONE batch row, written over plain coordinates.

  A row has a memory `a : 200 × 512` (its sequence of 200 vectors) and a last vector `l : 512`. With weights
  `U, W : 512 × 512`, `v : 512` and `e : 2 × 512`:
    hidden s o = tanh (∑ₖ a s k · U o k + ∑ₖ l k · W o k)            -- additive attention's hidden layer
    score s    = ∑ₒ hidden s o · v o                                   -- one logit per sequence position
    attn       = softmax score                                         -- over the 200 positions
    context h  = ∑ₛ attn s · a s h                                     -- the attended memory
    logit j    = ∑ₕ context h · e j h                                  -- two gate logits
    result     = softmax logit                                         -- over the two gates
  The softmax is the shifted one: with `μ = max (−∞) (the fold of max from −∞ over x)`,
  `softmax x i = exp (x i − μ) / ∑ₖ exp (x k − μ)`, every operation the exact one on the extended reals.
  Nothing here needs the inputs finite: the two programs differ only in how they lay these sums out.
-/
import Idealize.ShloMosaic.PureOps.Ideal

noncomputable section

namespace Cert.Spec

open Idealize.ShloMosaic

/-- The f32 word of −∞, the value both programs start a maximum from. -/
abbrev negInf : EReal := Ideal.ofBits .f32 0xFF800000#32

/-- The shifted softmax of a finite family of extended reals. -/
def softmax {n : ℕ} (x : Fin n → EReal) (i : Fin n) : EReal :=
  Ideal.div (Ideal.exp (x i - max negInf ((Finset.univ : Finset (Fin n)).fold max negInf x)))
    (∑ k : Fin n, Ideal.exp (x k - max negInf ((Finset.univ : Finset (Fin n)).fold max negInf x)))

/-- The hidden layer at sequence position `s` and unit `o`. -/
def hidden (a : Fin 200 → Fin 512 → EReal) (l : Fin 512 → EReal) (U W : Fin 512 → Fin 512 → EReal)
    (s : Fin 200) (o : Fin 512) : EReal :=
  Ideal.tanh ((∑ k : Fin 512, a s k * U o k) + ∑ k : Fin 512, l k * W o k)

/-- The attention logit of sequence position `s`. -/
def score (a : Fin 200 → Fin 512 → EReal) (l : Fin 512 → EReal) (U W : Fin 512 → Fin 512 → EReal)
    (v : Fin 512 → EReal) (s : Fin 200) : EReal :=
  ∑ o : Fin 512, hidden a l U W s o * v o

/-- The attended memory. -/
def context (a : Fin 200 → Fin 512 → EReal) (l : Fin 512 → EReal) (U W : Fin 512 → Fin 512 → EReal)
    (v : Fin 512 → EReal) (h : Fin 512) : EReal :=
  ∑ s : Fin 200, softmax (score a l U W v) s * a s h

/-- The two gate logits. -/
def logit (a : Fin 200 → Fin 512 → EReal) (l : Fin 512 → EReal) (U W : Fin 512 → Fin 512 → EReal)
    (v : Fin 512 → EReal) (e : Fin 2 → Fin 512 → EReal) (j : Fin 2) : EReal :=
  ∑ h : Fin 512, context a l U W v h * e j h

/-- The row's result: the softmax of its two gate logits. -/
def row (a : Fin 200 → Fin 512 → EReal) (l : Fin 512 → EReal) (U W : Fin 512 → Fin 512 → EReal)
    (v : Fin 512 → EReal) (e : Fin 2 → Fin 512 → EReal) (j : Fin 2) : EReal :=
  softmax (logit a l U W v e) j

end Cert.Spec

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.LibLayout.lean ====
/-
  Layout operations read at coordinates, for shapes the library's own collection does not cover:
  a vector turned into a column, a column repeated along its unit axis, and the two reshapes between a
  three-axis array and the two-axis array whose rows are the pairs of its first two coordinates.
  Each lemma names the operand's index by coordinates, so that it applies by unification.
-/
import Idealize.ShloMosaic.Lib.Pipeline.Value
import Idealize.ShloMosaic.Lib.ValueIdx

namespace Cert.LibLayout

open Idealize.ShloMosaic Idealize.ShloMosaic.ValueIdx

variable {α : Type}

/-- A vector of length `a` cast to a column `[a, 1]` reads, at `(i, u)`, the vector at `i`: the row-major
    position of `(i, u)` is `i · 1 + u = i`, the unit coordinate being zero. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An array `[a, b, c]` reshaped to `[n, c]` with `n = a · b` reads, at row `r = p · b + q` and column `z`,
    the array at `(p, q, z)`: both have the row-major position `(p · b + q) · c + z`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (z : Fin c) (r : Fin n)
    (hr : r.val = p.val * b + q.val) : shapeCast ⟨2, ![n, c]⟩ x h (ix2 r z) = x (ix3 p q z) :=
  shapeCast_apply x h _ _ (by
    rw [Shape.rowMajor_val_three, Shape.rowMajor_val_two]
    show (p.val * b + q.val) * c + z.val = r.val * c + z.val
    rw [hr])

/-- The reshape back: `[n, c]` reshaped to `[a, b, c]` reads, at `(p, q, z)`, row `r = p · b + q` at column `z`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (z : Fin c) (r : Fin n)
    (hr : r.val = p.val * b + q.val) : shapeCast ⟨3, ![a, b, c]⟩ x h (ix3 p q z) = x (ix2 r z) :=
  shapeCast_apply x h _ _ (by
    rw [Shape.rowMajor_val_two, Shape.rowMajor_val_three]
    show r.val * c + z.val = (p.val * b + q.val) * c + z.val
    rw [hr])

end Cert.LibLayout
-- ==== Proof.LibUnitAxes.lean ====
/-
  Two shape casts across unit axes, read at coordinates.

  A vector of `n` elements viewed as a `[1, 1, n]` block keeps element `i` at `(0, 0, i)`; an `[a, 1, n]` array
  flattened to `[a·n]` keeps element `(p, 0, i)` at position `p·n + i`. Both are the row-major position of an index
  computed on each side.
-/
import Idealize.ShloMosaic.Lib.Pipeline.Value
import Idealize.ShloMosaic.Lib.ValueIdx

namespace Idealize.ShloMosaic.ValueIdx

open Idealize.ShloMosaic

variable {α : Type}

/-- An `[n]` vector cast to `[1, 1, n]` reads, at `(u, v, i)`, the operand at `i`, whatever the unit coordinates. -/
theorem shapeCast_a_11a_apply {n : ℕ} (x : (⟨1, ![n]⟩ : Shape).Idx → α)
    (h : (⟨1, ![n]⟩ : Shape).ShapeCasts ⟨3, ![1, 1, n]⟩) (u v : Fin 1) (i : Fin n) :
    shapeCast ⟨3, ![1, 1, n]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * n + i.val
    rw [hu, hv]; simp)

/-- An `[a, 1, n]` array flattened to `[N]` (`N = a·n`) reads, at `r = p·n + i`, the operand at `(p, 0, i)`. -/
theorem shapeCast_a1n_flat_apply {a n N : ℕ} (x : (⟨3, ![a, 1, n]⟩ : Shape).Idx → α)
    (h : (⟨3, ![a, 1, n]⟩ : Shape).ShapeCasts ⟨1, ![N]⟩) (p : Fin a) (i : Fin n) (r : Fin N)
    (hr : r.val = p.val * n + i.val) :
    shapeCast ⟨1, ![N]⟩ x h (ix1 r) = x (ix3 p (0 : Fin 1) i) :=
  shapeCast_apply x h _ _ (by
    rw [Shape.rowMajor_val_three, Shape.rowMajor_val_one]
    show (p.val * 1 + 0) * n + i.val = r.val
    rw [hr]; simp)

end Idealize.ShloMosaic.ValueIdx
-- ==== Proof.KerDots.lean ====
/-
  The kernel's three matrix products read at coordinates. Each contracts the SECOND axis of both operands
  (`X · Yᵀ`), into a zero accumulator, so at the exact values the entry at `(r, c)` is `∑ₖ X r k · Y c k`:
  the memory's projection (3200 flattened rows against the 512 × 512 weight), the last vector's projection
  (16 rows) and the two gate logits (16 rows against the 2 × 512 weight).
-/
import proofs.«174653_j28716151341088_2_alg».proof.KernelIdeal
import proofs.«174653_j28716151341088_2_alg».proof.Proof.Gen.KernelIdeal
import Idealize.ShloMosaic.Lib.ValueIdx
import Idealize.ShloMosaic.PureOps.Ideal.Laws

noncomputable section

namespace Cert.KernelIdeal.RowValue

open Cert.KernelIdeal Cert.KernelIdeal.Gen Idealize.ShloMosaic Idealize.ShloMosaic.ValueIdx

/-! ### The memory's projection: [3200, 512] · [512, 512]ᵀ -/

theorem mmA_l0 (i : S3200x512.Idx) (q : dot_S3200x512_S512x512_S3200x512_1_1_0_0_n_n.contr.Idx) : (dot_S3200x512_S512x512_S3200x512_1_1_0_0_n_n.lhsIdx i q 0).val = (i 0).val := by
  unfold DotDims.lhsIdx
  rw [dif_neg (show ¬(0 : Fin S3200x512.rank) ∈ dot_S3200x512_S512x512_S3200x512_1_1_0_0_n_n.lhsBatch by decide), dif_pos (show (0 : Fin S3200x512.rank) ∈ dot_S3200x512_S512x512_S3200x512_1_1_0_0_n_n.lhsNonContracting by decide)]
  rfl
theorem mmA_l1 (i : S3200x512.Idx) (q : dot_S3200x512_S512x512_S3200x512_1_1_0_0_n_n.contr.Idx) : (dot_S3200x512_S512x512_S3200x512_1_1_0_0_n_n.lhsIdx i q 1).val = (q ⟨0, by decide⟩).val :=
  dot_S3200x512_S512x512_S3200x512_1_1_0_0_n_n.lhsIdx_val_of_single rfl i q
theorem mmA_r0 (i : S3200x512.Idx) (q : dot_S3200x512_S512x512_S3200x512_1_1_0_0_n_n.contr.Idx) : (dot_S3200x512_S512x512_S3200x512_1_1_0_0_n_n.rhsIdx i q 0).val = (i 1).val := by
  unfold DotDims.rhsIdx
  rw [dif_neg (show ¬(0 : Fin S512x512.rank) ∈ dot_S3200x512_S512x512_S3200x512_1_1_0_0_n_n.rhsBatch by decide), dif_pos (show (0 : Fin S512x512.rank) ∈ dot_S3200x512_S512x512_S3200x512_1_1_0_0_n_n.rhsNonContracting by decide)]
  rfl
theorem mmA_r1 (i : S3200x512.Idx) (q : dot_S3200x512_S512x512_S3200x512_1_1_0_0_n_n.contr.Idx) : (dot_S3200x512_S512x512_S3200x512_1_1_0_0_n_n.rhsIdx i q 1).val = (q ⟨0, by decide⟩).val :=
  dot_S3200x512_S512x512_S3200x512_1_1_0_0_n_n.rhsIdx_val_of_single rfl i q

/-- Into the zero accumulator the product at `(r, c)` is `∑ₖ X r k · Y c k`: both operands are contracted along their second axis. -/
theorem mmA_apply (X : FVec Ideal S3200x512 .bf16) (Y : FVec Ideal S512x512 .bf16) (r : Fin 3200) (c : Fin 512) :
    matmul dot_S3200x512_S512x512_S3200x512_1_1_0_0_n_n none X Y (constant (F := Ideal) S3200x512 .f32 0x00000000#32) (ix2 r c)
      = ∑ k : Fin 512, X (ix2 r k) * Y (ix2 c k) := by
  simp only [matmul]
  rw [Ideal.matmul_constant_zero_apply, ← Equiv.sum_comp (contrEquiv1 dot_S3200x512_S512x512_S3200x512_1_1_0_0_n_n 512 rfl rfl).symm]
  refine Finset.sum_congr rfl fun k _ => ?_
  have hk := contrEquiv1_symm_val dot_S3200x512_S512x512_S3200x512_1_1_0_0_n_n 512 rfl rfl k
  have el : dot_S3200x512_S512x512_S3200x512_1_1_0_0_n_n.lhsIdx (ix2 r c) ((contrEquiv1 dot_S3200x512_S512x512_S3200x512_1_1_0_0_n_n 512 rfl rfl).symm k) = ix2 r k := funext fun a => Fin.ext (by
    match a with
    | ⟨0, _⟩ => exact mmA_l0 _ _
    | ⟨1, _⟩ => exact (mmA_l1 _ _).trans hk)
  have er : dot_S3200x512_S512x512_S3200x512_1_1_0_0_n_n.rhsIdx (ix2 r c) ((contrEquiv1 dot_S3200x512_S512x512_S3200x512_1_1_0_0_n_n 512 rfl rfl).symm k) = ix2 c k := funext fun a => Fin.ext (by
    match a with
    | ⟨0, _⟩ => exact mmA_r0 _ _
    | ⟨1, _⟩ => exact (mmA_r1 _ _).trans hk)
  rw [el, er]

/-! ### The last vector's projection: [16, 512] · [512, 512]ᵀ -/

theorem mmL_l0 (i : S16x512.Idx) (q : dot_S16x512_S512x512_S16x512_1_1_0_0_n_n.contr.Idx) : (dot_S16x512_S512x512_S16x512_1_1_0_0_n_n.lhsIdx i q 0).val = (i 0).val := by
  unfold DotDims.lhsIdx
  rw [dif_neg (show ¬(0 : Fin S16x512.rank) ∈ dot_S16x512_S512x512_S16x512_1_1_0_0_n_n.lhsBatch by decide), dif_pos (show (0 : Fin S16x512.rank) ∈ dot_S16x512_S512x512_S16x512_1_1_0_0_n_n.lhsNonContracting by decide)]
  rfl
theorem mmL_l1 (i : S16x512.Idx) (q : dot_S16x512_S512x512_S16x512_1_1_0_0_n_n.contr.Idx) : (dot_S16x512_S512x512_S16x512_1_1_0_0_n_n.lhsIdx i q 1).val = (q ⟨0, by decide⟩).val :=
  dot_S16x512_S512x512_S16x512_1_1_0_0_n_n.lhsIdx_val_of_single rfl i q
theorem mmL_r0 (i : S16x512.Idx) (q : dot_S16x512_S512x512_S16x512_1_1_0_0_n_n.contr.Idx) : (dot_S16x512_S512x512_S16x512_1_1_0_0_n_n.rhsIdx i q 0).val = (i 1).val := by
  unfold DotDims.rhsIdx
  rw [dif_neg (show ¬(0 : Fin S512x512.rank) ∈ dot_S16x512_S512x512_S16x512_1_1_0_0_n_n.rhsBatch by decide), dif_pos (show (0 : Fin S512x512.rank) ∈ dot_S16x512_S512x512_S16x512_1_1_0_0_n_n.rhsNonContracting by decide)]
  rfl
theorem mmL_r1 (i : S16x512.Idx) (q : dot_S16x512_S512x512_S16x512_1_1_0_0_n_n.contr.Idx) : (dot_S16x512_S512x512_S16x512_1_1_0_0_n_n.rhsIdx i q 1).val = (q ⟨0, by decide⟩).val :=
  dot_S16x512_S512x512_S16x512_1_1_0_0_n_n.rhsIdx_val_of_single rfl i q

/-- Into the zero accumulator the product at `(r, c)` is `∑ₖ X r k · Y c k`: both operands are contracted along their second axis. -/
theorem mmL_apply (X : FVec Ideal S16x512 .f32) (Y : FVec Ideal S512x512 .f32) (r : Fin 16) (c : Fin 512) :
    matmul dot_S16x512_S512x512_S16x512_1_1_0_0_n_n (some .fp32) X Y (constant (F := Ideal) S16x512 .f32 0x00000000#32) (ix2 r c)
      = ∑ k : Fin 512, X (ix2 r k) * Y (ix2 c k) := by
  simp only [matmul]
  rw [Ideal.matmul_constant_zero_apply, ← Equiv.sum_comp (contrEquiv1 dot_S16x512_S512x512_S16x512_1_1_0_0_n_n 512 rfl rfl).symm]
  refine Finset.sum_congr rfl fun k _ => ?_
  have hk := contrEquiv1_symm_val dot_S16x512_S512x512_S16x512_1_1_0_0_n_n 512 rfl rfl k
  have el : dot_S16x512_S512x512_S16x512_1_1_0_0_n_n.lhsIdx (ix2 r c) ((contrEquiv1 dot_S16x512_S512x512_S16x512_1_1_0_0_n_n 512 rfl rfl).symm k) = ix2 r k := funext fun a => Fin.ext (by
    match a with
    | ⟨0, _⟩ => exact mmL_l0 _ _
    | ⟨1, _⟩ => exact (mmL_l1 _ _).trans hk)
  have er : dot_S16x512_S512x512_S16x512_1_1_0_0_n_n.rhsIdx (ix2 r c) ((contrEquiv1 dot_S16x512_S512x512_S16x512_1_1_0_0_n_n 512 rfl rfl).symm k) = ix2 c k := funext fun a => Fin.ext (by
    match a with
    | ⟨0, _⟩ => exact mmL_r0 _ _
    | ⟨1, _⟩ => exact (mmL_r1 _ _).trans hk)
  rw [el, er]

/-! ### The gate logits: [16, 512] · [2, 512]ᵀ -/

theorem mmE_l0 (i : S16x2.Idx) (q : dot_S16x512_S2x512_S16x2_1_1_0_0_n_n.contr.Idx) : (dot_S16x512_S2x512_S16x2_1_1_0_0_n_n.lhsIdx i q 0).val = (i 0).val := by
  unfold DotDims.lhsIdx
  rw [dif_neg (show ¬(0 : Fin S16x512.rank) ∈ dot_S16x512_S2x512_S16x2_1_1_0_0_n_n.lhsBatch by decide), dif_pos (show (0 : Fin S16x512.rank) ∈ dot_S16x512_S2x512_S16x2_1_1_0_0_n_n.lhsNonContracting by decide)]
  rfl
theorem mmE_l1 (i : S16x2.Idx) (q : dot_S16x512_S2x512_S16x2_1_1_0_0_n_n.contr.Idx) : (dot_S16x512_S2x512_S16x2_1_1_0_0_n_n.lhsIdx i q 1).val = (q ⟨0, by decide⟩).val :=
  dot_S16x512_S2x512_S16x2_1_1_0_0_n_n.lhsIdx_val_of_single rfl i q
theorem mmE_r0 (i : S16x2.Idx) (q : dot_S16x512_S2x512_S16x2_1_1_0_0_n_n.contr.Idx) : (dot_S16x512_S2x512_S16x2_1_1_0_0_n_n.rhsIdx i q 0).val = (i 1).val := by
  unfold DotDims.rhsIdx
  rw [dif_neg (show ¬(0 : Fin S2x512.rank) ∈ dot_S16x512_S2x512_S16x2_1_1_0_0_n_n.rhsBatch by decide), dif_pos (show (0 : Fin S2x512.rank) ∈ dot_S16x512_S2x512_S16x2_1_1_0_0_n_n.rhsNonContracting by decide)]
  rfl
theorem mmE_r1 (i : S16x2.Idx) (q : dot_S16x512_S2x512_S16x2_1_1_0_0_n_n.contr.Idx) : (dot_S16x512_S2x512_S16x2_1_1_0_0_n_n.rhsIdx i q 1).val = (q ⟨0, by decide⟩).val :=
  dot_S16x512_S2x512_S16x2_1_1_0_0_n_n.rhsIdx_val_of_single rfl i q

/-- Into the zero accumulator the product at `(r, c)` is `∑ₖ X r k · Y c k`: both operands are contracted along their second axis. -/
theorem mmE_apply (X : FVec Ideal S16x512 .f32) (Y : FVec Ideal S2x512 .f32) (r : Fin 16) (c : Fin 2) :
    matmul dot_S16x512_S2x512_S16x2_1_1_0_0_n_n (some .fp32) X Y (constant (F := Ideal) S16x2 .f32 0x00000000#32) (ix2 r c)
      = ∑ k : Fin 512, X (ix2 r k) * Y (ix2 c k) := by
  simp only [matmul]
  rw [Ideal.matmul_constant_zero_apply, ← Equiv.sum_comp (contrEquiv1 dot_S16x512_S2x512_S16x2_1_1_0_0_n_n 512 rfl rfl).symm]
  refine Finset.sum_congr rfl fun k _ => ?_
  have hk := contrEquiv1_symm_val dot_S16x512_S2x512_S16x2_1_1_0_0_n_n 512 rfl rfl k
  have el : dot_S16x512_S2x512_S16x2_1_1_0_0_n_n.lhsIdx (ix2 r c) ((contrEquiv1 dot_S16x512_S2x512_S16x2_1_1_0_0_n_n 512 rfl rfl).symm k) = ix2 r k := funext fun a => Fin.ext (by
    match a with
    | ⟨0, _⟩ => exact mmE_l0 _ _
    | ⟨1, _⟩ => exact (mmE_l1 _ _).trans hk)
  have er : dot_S16x512_S2x512_S16x2_1_1_0_0_n_n.rhsIdx (ix2 r c) ((contrEquiv1 dot_S16x512_S2x512_S16x2_1_1_0_0_n_n 512 rfl rfl).symm k) = ix2 c k := funext fun a => Fin.ext (by
    match a with
    | ⟨0, _⟩ => exact mmE_r0 _ _
    | ⟨1, _⟩ => exact (mmE_r1 _ _).trans hk)
  rw [el, er]

end Cert.KernelIdeal.RowValue

end
-- ==== Proof.KerStages.lean ====
/-
  The kernel body's arithmetic on one block of 16 rows, stage by stage, read at coordinates at the exact values.

  The body's one value `k0_pay2` (the gate logits of the block) is a chain of stages; each is named here as a function
  of the loaded blocks — the memory block `P0 : [16, 200, 512]`, the last vectors `P1 : [16, 512]`, and the weights
  `P2, P3 : [512, 512]`, `P4 : [1, 512]`, `P5 : [2, 512]` — and read at coordinates: row `p` of the block computes
  exactly the row function of the specification from ITS OWN row of `P0` and `P1`. The reshapes
  `[16, 200, 512] ↔ [3200, 512]` only regroup rows (row `200 p + s` is `(p, s)`), the format change on the way into
  the first product is the identity on exact values, and every sum is over the same index set as the specification's.
-/
import proofs.«174653_j28716151341088_2_alg».proof.Proof.Gen.KernelIdeal.Skeleton
import proofs.«174653_j28716151341088_2_alg».proof.Proof.Spec
import proofs.«174653_j28716151341088_2_alg».proof.Proof.LibRows
import proofs.«174653_j28716151341088_2_alg».proof.Proof.LibLayout
import proofs.«174653_j28716151341088_2_alg».proof.Proof.LibUnitAxes
import proofs.«174653_j28716151341088_2_alg».proof.Proof.KerDots
import Idealize.ShloMosaic.Lib.ValueLayout

noncomputable section

namespace Cert.KernelIdeal.RowValue

open Cert.KernelIdeal Cert.KernelIdeal.Gen Idealize.ShloMosaic Idealize.ShloMosaic.ValueIdx
open Cert.LibRows Cert.LibLayout Cert.Spec

variable (P0 : FVec Ideal S16x200x512 .f32) (P1 : FVec Ideal S16x512 .f32) (P2 : FVec Ideal S512x512 .bf16)
  (P3 : FVec Ideal S512x512 .f32) (P4 : FVec Ideal S1x512 .f32) (P5 : FVec Ideal S2x512 .f32)

/-! ## A block's rows and the weights as plain families -/

/-- Row `p` of the memory block: 200 vectors of 512. -/
abbrev rowA (p : Fin 16) : Fin 200 → Fin 512 → EReal := fun s k => P0 (ix3 p s k)
/-- Row `p` of the last vectors. -/
abbrev rowL (p : Fin 16) : Fin 512 → EReal := fun k => P1 (ix2 p k)
/-- The memory's weight. -/
abbrev matU : Fin 512 → Fin 512 → EReal := fun o k => P2 (ix2 o k)
/-- The last vector's weight. -/
abbrev matW : Fin 512 → Fin 512 → EReal := fun o k => P3 (ix2 o k)
/-- The score vector. -/
abbrev vecV : Fin 512 → EReal := fun k => P4 (ix2 (0 : Fin 1) k)
/-- The gate weight. -/
abbrev matE : Fin 2 → Fin 512 → EReal := fun j k => P5 (ix2 j k)

/-! ## The stages -/

/-- The memory's projection, back in block layout. -/
def kProj : FVec Ideal S16x200x512 .f32 :=
  shapeCast S16x200x512 (matmul dot_S3200x512_S512x512_S3200x512_1_1_0_0_n_n none
    (truncf .bf16 (shapeCast S3200x512 P0 shapeCasts_S16x200x512_S3200x512) bitsLt_bf16_f32)
    (shapeCast S512x512 P2 shapeCasts_S512x512_S512x512) (constant (F := Ideal) S3200x512 .f32 0x00000000#32)) shapeCasts_S3200x512_S16x200x512

/-- The last vectors' projection. -/
def kLast : FVec Ideal S16x512 .f32 :=
  matmul dot_S16x512_S512x512_S16x512_1_1_0_0_n_n (some .fp32) P1 P3 (constant (F := Ideal) S16x512 .f32 0x00000000#32)

/-- The hidden layer. -/
def kHid : FVec Ideal S16x200x512 .f32 :=
  tanh (addf (kProj P0 P2) (broadcastTo S16x200x512 (shapeCast S16x1x512 (kLast P1 P3) shapeCasts_S16x512_S16x1x512) broadcasts_S16x1x512_S16x200x512))

/-- The attention logits. -/
def kScore : FVec Ideal S16x200 .f32 :=
  multiReduction .add [2] S16x200 (mulf (kHid P0 P1 P2 P3)
    (broadcastTo S16x200x512 (shapeCast S1x1x512 (shapeCast S512 P4 shapeCasts_S1x512_S512) shapeCasts_S512_S1x1x512) broadcasts_S1x1x512_S16x200x512))
    0x00000000#32 reduces_S16x200x512_S16x200 (.inl rfl) rfl

/-- A row's maximum, started from −∞ twice as the body does. -/
def kMax {n : ℕ} (x : FVec Ideal ⟨2, ![16, n]⟩ .f32) (h : (⟨2, ![16, n]⟩ : Shape).Reduces [(1 : Fin 2)] S16) : FVec Ideal S16 .f32 :=
  maximumf (broadcast S16 (Scalar.ofBits .f32 0xFF800000#32)) (multiReduction .maximumf [1] S16 x 0xFF800000#32 h (.inl rfl) rfl)

/-- The shifted exponentials of a `[16, n]` array's rows. -/
def kExp {n : ℕ} (x : FVec Ideal ⟨2, ![16, n]⟩ .f32) (h : (⟨2, ![16, n]⟩ : Shape).Reduces [(1 : Fin 2)] S16)
    (hb : S16x1.Broadcasts ⟨2, ![16, n]⟩) : FVec Ideal ⟨2, ![16, n]⟩ .f32 :=
  exp (subf x (broadcastTo ⟨2, ![16, n]⟩ (shapeCast S16x1 (kMax x h) shapeCasts_S16_S16x1) hb))

/-- The rows' softmax. -/
def kSoft {n : ℕ} (x : FVec Ideal ⟨2, ![16, n]⟩ .f32) (h : (⟨2, ![16, n]⟩ : Shape).Reduces [(1 : Fin 2)] S16)
    (hb : S16x1.Broadcasts ⟨2, ![16, n]⟩) : FVec Ideal ⟨2, ![16, n]⟩ .f32 :=
  divf (kExp x h hb) (broadcastTo ⟨2, ![16, n]⟩ (shapeCast S16x1
    (multiReduction .add [1] S16 (kExp x h hb) 0x00000000#32 h (.inl rfl) rfl) shapeCasts_S16_S16x1) hb)

/-- The attended memory. -/
def kCtx (w : FVec Ideal S16x200 .f32) : FVec Ideal S16x512 .f32 :=
  multiReduction .add [1] S16x512 (mulf (broadcastTo S16x200x512 (shapeCast S16x200x1 w shapeCasts_S16x200_S16x200x1) broadcasts_S16x200x1_S16x200x512) P0)
    0x00000000#32 reduces_S16x200x512_S16x512 (.inl rfl) rfl

/-- The gate logits. -/
def kLogit : FVec Ideal S16x2 .f32 :=
  matmul dot_S16x512_S2x512_S16x2_1_1_0_0_n_n (some .fp32)
    (kCtx P0 (kSoft (kScore P0 P1 P2 P3 P4) reduces_S16x200_S16 broadcasts_S16x1_S16x200)) P5 (constant (F := Ideal) S16x2 .f32 0x00000000#32)

/-- The body's value IS the chain of stages. -/
theorem pay2_eq : k0_pay2 (F := Ideal) P0 P1 P2 P3 P4 P5 = kLogit P0 P1 P2 P3 P4 P5 := rfl

/-! ## The stages at coordinates -/

/-- The memory's projection at `(p, s, o)`: row `200 p + s` of the flattened block against row `o` of the weight. -/
theorem kProj_apply (p : Fin 16) (s : Fin 200) (o : Fin 512) :
    kProj P0 P2 (ix3 p s o) = ∑ k : Fin 512, P0 (ix3 p s k) * P2 (ix2 o k) := by
  have hr : p.val * 200 + s.val < 3200 := by have := p.isLt; have := s.isLt; omega
  unfold kProj
  refine (shapeCast_nc_abc_apply _ shapeCasts_S3200x512_S16x200x512 p s o ⟨p.val * 200 + s.val, hr⟩ rfl).trans ?_
  refine (mmA_apply _ _ _ o).trans (Finset.sum_congr rfl fun k _ => ?_)
  rw [shapeCast_self]
  exact congrArg (· * P2 (ix2 o k)) (shapeCast_abc_nc_apply P0 shapeCasts_S16x200x512_S3200x512 p s k ⟨p.val * 200 + s.val, hr⟩ rfl)

/-- The last vector's projection at `(p, o)`. -/
theorem kLast_apply (p : Fin 16) (o : Fin 512) : kLast P1 P3 (ix2 p o) = ∑ k : Fin 512, P1 (ix2 p k) * P3 (ix2 o k) :=
  mmL_apply P1 P3 p o

/-- The hidden layer at `(p, s, o)` is the specification's, of row `p`. -/
theorem kHid_apply (p : Fin 16) (s : Fin 200) (o : Fin 512) :
    kHid P0 P1 P2 P3 (ix3 p s o) = hidden (rowA P0 p) (rowL P1 p) (matU P2) (matW P3) s o := by
  unfold kHid Spec.hidden
  exact congrArg Ideal.tanh (congrArg₂ (· + ·) (kProj_apply P0 P2 p s o)
    ((broadcastTo_a1c_abc_apply _ broadcasts_S16x1x512_S16x200x512 p s o).trans
      ((shapeCast_ab_a1b_apply _ shapeCasts_S16x512_S16x1x512 p 0 o).trans (kLast_apply P1 P3 p o))))

/-- The attention logit at `(p, s)`: the lane sum of the hidden layer against the score vector. -/
theorem kScore_apply (p : Fin 16) (s : Fin 200) :
    kScore P0 P1 P2 P3 P4 (ix2 p s) = score (rowA P0 p) (rowL P1 p) (matU P2) (matW P3) (vecV P4) s := by
  unfold kScore score
  refine (lastSum_apply _ 0x00000000#32 reduces_S16x200x512_S16x200 (.inl rfl) rfl p s).trans (Finset.sum_congr rfl fun o _ => ?_)
  exact congrArg₂ (· * ·) (kHid_apply P0 P1 P2 P3 p s o)
    ((broadcastTo_11c_abc_apply _ broadcasts_S1x1x512_S16x200x512 p s o).trans
      ((shapeCast_a_11a_apply _ shapeCasts_S512_S1x1x512 0 0 o).trans (shapeCast_1a_a_apply P4 shapeCasts_S1x512_S512 o)))

section Rows

variable {n : ℕ} (x : FVec Ideal ⟨2, ![16, n]⟩ .f32) (h : (⟨2, ![16, n]⟩ : Shape).Reduces [(1 : Fin 2)] S16)
  (hb : S16x1.Broadcasts ⟨2, ![16, n]⟩)

/-- Row `p`'s shifted maximum. -/
theorem kMax_apply (p : Fin 16) :
    kMax x h (ix1 p) = max negInf ((Finset.univ : Finset (Fin n)).fold max negInf (fun s => x (ix2 p s))) := by
  unfold kMax
  exact congrArg (max negInf) (rowMax_apply x 0xFF800000#32 h (.inl rfl) rfl p)

/-- The shifted exponential at `(p, s)`. -/
theorem kExp_apply (p : Fin 16) (s : Fin n) :
    kExp x h hb (ix2 p s)
      = Ideal.exp (x (ix2 p s) - max negInf ((Finset.univ : Finset (Fin n)).fold max negInf (fun s => x (ix2 p s)))) := by
  unfold kExp
  exact congrArg (fun z => Ideal.exp (x (ix2 p s) - z))
    ((broadcastTo_a1_ab_apply _ hb p s).trans ((shapeCast_a_a1_apply _ shapeCasts_S16_S16x1 p 0).trans (kMax_apply x h p)))

/-- The rows' softmax at `(p, s)` is the specification's softmax of row `p`. -/
theorem kSoft_apply (p : Fin 16) (s : Fin n) : kSoft x h hb (ix2 p s) = softmax (fun s => x (ix2 p s)) s := by
  unfold kSoft softmax
  exact congrArg₂ Ideal.div (kExp_apply x h hb p s)
    ((broadcastTo_a1_ab_apply _ hb p s).trans ((shapeCast_a_a1_apply _ shapeCasts_S16_S16x1 p 0).trans
      ((rowSum_apply _ 0x00000000#32 h (.inl rfl) rfl p).trans (Finset.sum_congr rfl fun k _ => kExp_apply x h hb p k))))

end Rows

/-- The attended memory at `(p, z)`: the weights of row `p` against column `z` of its memory. -/
theorem kCtx_apply (w : FVec Ideal S16x200 .f32) (p : Fin 16) (z : Fin 512) :
    kCtx P0 w (ix2 p z) = ∑ s : Fin 200, w (ix2 p s) * P0 (ix3 p s z) := by
  unfold kCtx
  refine (midSum_apply _ 0x00000000#32 reduces_S16x200x512_S16x512 (.inl rfl) rfl p z).trans (Finset.sum_congr rfl fun s _ => ?_)
  exact congrArg (· * P0 (ix3 p s z)) ((broadcastTo_ab1_abc_apply _ broadcasts_S16x200x1_S16x200x512 p s z).trans
    (shapeCast_ab_ab1_apply w shapeCasts_S16x200_S16x200x1 p s 0))

/-- The gate logits at `(p, j)` are the specification's, of row `p`. -/
theorem kLogit_apply (p : Fin 16) (j : Fin 2) :
    kLogit P0 P1 P2 P3 P4 P5 (ix2 p j) = logit (rowA P0 p) (rowL P1 p) (matU P2) (matW P3) (vecV P4) (matE P5) j := by
  unfold kLogit logit context
  refine (mmE_apply _ P5 p j).trans (Finset.sum_congr rfl fun z _ => ?_)
  refine congrArg (· * P5 (ix2 j z)) ?_
  refine (kCtx_apply P0 _ p z).trans (Finset.sum_congr rfl fun s _ => ?_)
  refine congrArg (· * P0 (ix3 p s z)) ?_
  refine (kSoft_apply _ reduces_S16x200_S16 broadcasts_S16x1_S16x200 p s).trans ?_
  exact congrArg (fun f => softmax f s) (funext fun s' => kScore_apply P0 P1 P2 P3 P4 p s')

end Cert.KernelIdeal.RowValue

end
-- ==== Proof.KerBlock.lean ====
/-
  What one grid point leaves in its output block, at coordinates: entry `(p, j)` of the `[16, 2]` block is the
  specification's row function of row `p` of the point's input blocks — the block's gate logits (the body's value) put
  through the two-way softmax, whose maximum and sum run over the block's second axis.
-/
import proofs.«174653_j28716151341088_2_alg».proof.Proof.KerStages
import proofs.«174653_j28716151341088_2_alg».proof.Proof.Gen.KernelIdeal.Value

noncomputable section

namespace Cert.KernelIdeal.RowValue

open Cert.KernelIdeal Cert.KernelIdeal.Gen Idealize.ShloMosaic Idealize.ShloMosaic.ValueIdx
open Cert.LibRows Cert.LibLayout Cert.Spec

variable (P0 : FVec Ideal S16x200x512 .f32) (P1 : FVec Ideal S16x512 .f32) (P2 : FVec Ideal S512x512 .bf16)
  (P3 : FVec Ideal S512x512 .f32) (P4 : FVec Ideal S1x512 .f32) (P5 : FVec Ideal S2x512 .f32)

/-- The block's entry `(p, j)` is the softmax of row `p`'s two gate logits. -/
theorem block_soft (p : Fin 16) (j : Fin 2) :
    Cert.KernelIdeal.Value.E6 (F := Ideal) P0 P1 P2 P3 P4 P5 (ix2 p j)
      = softmax (fun k => kLogit P0 P1 P2 P3 P4 P5 (ix2 p k)) j := by
  have e0 : Cert.KernelIdeal.Value.ix6_0 (ix2 p j) = ix2 p j := funext fun a => Fin.ext (by
    match a with | ⟨0, _⟩ => rfl | ⟨1, _⟩ => rfl)
  have e1 : Cert.KernelIdeal.Value.ix6_1 (ix2 p j) = ix1 p := funext fun a => Fin.ext (by
    match a with | ⟨0, _⟩ => rfl)
  have e2 : Cert.KernelIdeal.Value.ix6_2 (ix2 p j) = ix1 p := funext fun a => Fin.ext (by
    match a with | ⟨0, _⟩ => rfl)
  show Ideal.div (Ideal.exp (k0_pay2 (F := Ideal) P0 P1 P2 P3 P4 P5 (Cert.KernelIdeal.Value.ix6_0 (ix2 p j))
        - max negInf (multiReduction .maximumf [1] S16 (k0_pay2 (F := Ideal) P0 P1 P2 P3 P4 P5) 0xFF800000#32 reduces_S16x2_S16 (.inl rfl) rfl
            (Cert.KernelIdeal.Value.ix6_1 (ix2 p j)))))
      (multiReduction .add [1] S16 (kExp (k0_pay2 (F := Ideal) P0 P1 P2 P3 P4 P5) reduces_S16x2_S16 broadcasts_S16x1_S16x2) 0x00000000#32
        reduces_S16x2_S16 (.inl rfl) rfl (Cert.KernelIdeal.Value.ix6_2 (ix2 p j))) = _
  rw [e0, e1, e2, pay2_eq]
  unfold softmax
  exact congrArg₂ Ideal.div
    (congrArg (fun z => Ideal.exp (kLogit P0 P1 P2 P3 P4 P5 (ix2 p j) - max negInf z))
      (rowMax_apply (kLogit P0 P1 P2 P3 P4 P5) 0xFF800000#32 reduces_S16x2_S16 (.inl rfl) rfl p))
    ((rowSum_apply _ 0x00000000#32 reduces_S16x2_S16 (.inl rfl) rfl p).trans
      (Finset.sum_congr rfl fun k _ => kExp_apply (kLogit P0 P1 P2 P3 P4 P5) reduces_S16x2_S16 broadcasts_S16x1_S16x2 p k))

/-- THE BLOCK at `(p, j)` is the specification's row function of row `p` of the point's input blocks. -/
theorem block_apply (p : Fin 16) (j : Fin 2) :
    Cert.KernelIdeal.Value.E6 (F := Ideal) P0 P1 P2 P3 P4 P5 (ix2 p j)
      = row (rowA P0 p) (rowL P1 p) (matU P2) (matW P3) (vecV P4) (matE P5) j := by
  rw [block_soft]
  unfold row
  exact congrArg (fun f => softmax f j) (funext fun k => kLogit_apply P0 P1 P2 P3 P4 P5 p k)

end Cert.KernelIdeal.RowValue

end
-- ==== Proof.SpecArray.lean ====
/-
  The specification over whole arrays: entry `(b, j)` of the `[2048, 2]` result is the row function of batch row `b`
  of the memory `[2048, 200, 512]` and of the last vectors `[2048, 512]`, with the four weights shared by all rows.
-/
import proofs.«174653_j28716151341088_2_alg».proof.Proof.Spec
import Idealize.ShloMosaic.Lib.ValueIdx

noncomputable section

namespace Cert.Spec

open Idealize.ShloMosaic Idealize.ShloMosaic.ValueIdx

/-- The row function depends on its six families only through their values. -/
theorem row_congr {a a' : Fin 200 → Fin 512 → EReal} {l l' : Fin 512 → EReal} {U U' W W' : Fin 512 → Fin 512 → EReal}
    {v v' : Fin 512 → EReal} {e e' : Fin 2 → Fin 512 → EReal}
    (ha : ∀ s k, a s k = a' s k) (hl : ∀ k, l k = l' k) (hU : ∀ o k, U o k = U' o k) (hW : ∀ o k, W o k = W' o k)
    (hv : ∀ k, v k = v' k) (he : ∀ j k, e j k = e' j k) (j : Fin 2) : row a l U W v e j = row a' l' U' W' v' e' j := by
  have h1 : a = a' := funext fun s => funext fun k => ha s k
  have h2 : l = l' := funext hl
  have h3 : U = U' := funext fun o => funext fun k => hU o k
  have h4 : W = W' := funext fun o => funext fun k => hW o k
  have h5 : v = v' := funext hv
  have h6 : e = e' := funext fun j => funext fun k => he j k
  rw [h1, h2, h3, h4, h5, h6]

variable (a0 : (⟨3, ![2048, 200, 512]⟩ : Shape).Idx → EReal) (a1 : (⟨2, ![2048, 512]⟩ : Shape).Idx → EReal)
  (a2 a3 : (⟨2, ![512, 512]⟩ : Shape).Idx → EReal) (a4 : (⟨2, ![1, 512]⟩ : Shape).Idx → EReal)
  (a5 : (⟨2, ![2, 512]⟩ : Shape).Idx → EReal)

/-- Entry `(b, j)` of the result, from batch row `b` of the inputs. -/
def wholeRow (b : Fin 2048) (j : Fin 2) : EReal :=
  row (fun s k => a0 (ix3 b s k)) (fun k => a1 (ix2 b k)) (fun o k => a2 (ix2 o k)) (fun o k => a3 (ix2 o k))
    (fun k => a4 (ix2 (0 : Fin 1) k)) (fun j k => a5 (ix2 j k)) j

/-- The whole result array as one function of the six argument arrays. -/
def whole : (⟨2, ![2048, 2]⟩ : Shape).Idx → EReal := fun i => wholeRow a0 a1 a2 a3 a4 a5 (i 0) (i 1)

theorem whole_ix2 (b : Fin 2048) (j : Fin 2) : whole a0 a1 a2 a3 a4 a5 (ix2 b j) = wholeRow a0 a1 a2 a3 a4 a5 b j := rfl

end Cert.Spec

end
-- ==== Proof.Final.lean ====
/-
  From blocks to the array. Grid point `t` (of 128) holds rows `16 t … 16 t + 15` of the memory, of the last vectors
  and of the result; the four weights are whole blocks at every point. So what point `t` writes back is block `t` of
  the specification's whole-array function of the arrays as the region finds them, the 128 blocks tile the `[2048, 2]`
  result (row `r` is in block `r / 16`), and the array ends at that function. The one host operation before the
  region rounds the memory's weight to a narrower format, which is the identity on exact values, so the region finds the
  weight itself.
-/
import proofs.«174653_j28716151341088_2_alg».proof.Proof.KerBlock
import proofs.«174653_j28716151341088_2_alg».proof.Proof.SpecArray
import proofs.«174653_j28716151341088_2_alg».proof.Proof.Gen.KernelIdeal.Value
import Idealize.ShloMosaic.Lib.StableHlo.Run

noncomputable section

namespace Cert.KernelIdeal.ArrayValue

open Cert.KernelIdeal Cert.KernelIdeal.Gen Cert.KernelIdeal.Value Cert.KernelIdeal.RowValue
open Idealize.ShloMosaic Idealize.ShloMosaic.TcCoe Idealize.SL.Sem Idealize.ShloMosaic.ValueIdx
open Idealize.ShloMosaic.Pipeline (Dat)
open Cert.Spec

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves in the output block, from the input blocks as variables: entry `(p, j)` is the row function
    of row `p` of the blocks. -/
theorem out_block (x0 : Vec Ideal S16x200x512 .f32) (x1 : Vec Ideal S16x512 .f32) (x2 : Vec Ideal S512x512 .bf16)
    (x3 : Vec Ideal S512x512 .f32) (x4 : Vec Ideal S1x512 .f32) (x5 : Vec Ideal S2x512 .f32) (p : Fin 16) (j : Fin 2) :
    out0_6 x0 x1 x2 x3 x4 x5 (ix2 p j) = row (rowA x0 p) (rowL x1 p) (matU x2) (matW x3) (vecV x4) (matE x5) j := by
  unfold out0_6
  simp only [View.ld_unit_zero (S := S16x200x512) hz3, View.ld_unit_zero (S := S16x512) hz2, View.ld_unit_zero (S := S512x512) hz2,
    View.ld_unit_zero (S := S1x512) hz2, View.ld_unit_zero (S := S2x512) hz2]
  rw [canon6_eq]
  exact block_apply x0 x1 x2 x3 x4 x5 p j

/-- The printed index maps, decided over the 128 points: the memory, the last vectors and the result move with the
    point along their first axis; every other block index is zero. -/
theorem idx_facts : ∀ t : Fin cfg0.N,
    win0_6.index t (0 : Fin 2) = t.val ∧ win0_6.index t (1 : Fin 2) = 0
    ∧ win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- WHAT POINT `t` WRITES BACK is block `t` of the whole-array function of the arrays as the region finds them. -/
theorem flushed_eq (c : Dev nD) (t : Fin cfg0.N) :
    (dats m 0 c).flushed 6 t = ((cfg0.win 6).blk t).view.read (Elt Ideal)
      (whole (V m c main_arg0) (V m c main_arg1) (V m c main_v0) (V m c main_arg3) (V m c main_arg4) (V m c main_arg5)) := by
  rw [flushed6]
  obtain ⟨h60, h61, h00, h01, h02, h10, h11, h20, h21, h30, h31, h40, h41, h50, h51⟩ := idx_facts t
  have hN : grid0.N = 128 := N_0
  have ht : t.val < grid0.N := t.isLt
  funext y
  obtain ⟨p, q, rfl⟩ : ∃ (p : Fin 16) (q : Fin 2), y = ix2 p q := ⟨y 0, y 1, eq_ix2 y⟩
  have hp := p.isLt
  have hq := q.isLt
  have hb : t.val * 16 + p.val < 2048 := by omega
  show out0_6 (iblk m c 0 t) (iblk m c 1 t) (iblk m c 2 t) (iblk m c 3 t) (iblk m c 4 t) (iblk m c 5 t) (ix2 p q)
      = whole (V m c main_arg0) (V m c main_arg1) (V m c main_v0) (V m c main_arg3) (V m c main_arg4) (V m c main_arg5)
          (((cfg0.win 6).blk t).view.emb (ix2 p q))
  refine (out_block (iblk m c 0 t) (iblk m c 1 t) (iblk m c 2 t) (iblk m c 3 t) (iblk m c 4 t) (iblk m c 5 t) p q).trans ?_
  have hi : ((cfg0.win 6).blk t).view.emb (ix2 p q) = ix2 (⟨t.val * 16 + p.val, hb⟩ : Fin 2048) q := funext fun a => Fin.ext (by
    match a with
    | ⟨0, _⟩ => show win0_6.index t (0 : Fin 2) * 16 + 1 * p.val = t.val * 16 + p.val; omega
    | ⟨1, _⟩ => show win0_6.index t (1 : Fin 2) * 2 + 1 * q.val = q.val; omega)
  rw [hi, whole_ix2]
  unfold wholeRow
  refine row_congr (fun s k => ?_) (fun k => ?_) (fun o k => ?_) (fun o k => ?_) (fun k => ?_) (fun j k => ?_) q
  · show V m c main_arg0 (((cfg0.win 0).blk t).view.emb (ix3 p s k)) = V m c main_arg0 (ix3 (⟨t.val * 16 + p.val, hb⟩ : Fin 2048) s k)
    refine congrArg (V m c main_arg0) (funext fun a => Fin.ext ?_)
    match a with
    | ⟨0, _⟩ => show win0_0.index t (0 : Fin 3) * 16 + 1 * p.val = t.val * 16 + p.val; omega
    | ⟨1, _⟩ => show win0_0.index t (1 : Fin 3) * 200 + 1 * s.val = s.val; omega
    | ⟨2, _⟩ => show win0_0.index t (2 : Fin 3) * 512 + 1 * k.val = k.val; omega
  · show V m c main_arg1 (((cfg0.win 1).blk t).view.emb (ix2 p k)) = V m c main_arg1 (ix2 (⟨t.val * 16 + p.val, hb⟩ : Fin 2048) k)
    refine congrArg (V m c main_arg1) (funext fun a => Fin.ext ?_)
    match a with
    | ⟨0, _⟩ => show win0_1.index t (0 : Fin 2) * 16 + 1 * p.val = t.val * 16 + p.val; omega
    | ⟨1, _⟩ => show win0_1.index t (1 : Fin 2) * 512 + 1 * k.val = k.val; omega
  · show V m c main_v0 (((cfg0.win 2).blk t).view.emb (ix2 o k)) = V m c main_v0 (ix2 o k)
    refine congrArg (V m c main_v0) (funext fun a => Fin.ext ?_)
    match a with
    | ⟨0, _⟩ => show win0_2.index t (0 : Fin 2) * 512 + 1 * o.val = o.val; omega
    | ⟨1, _⟩ => show win0_2.index t (1 : Fin 2) * 512 + 1 * k.val = k.val; omega
  · show V m c main_arg3 (((cfg0.win 3).blk t).view.emb (ix2 o k)) = V m c main_arg3 (ix2 o k)
    refine congrArg (V m c main_arg3) (funext fun a => Fin.ext ?_)
    match a with
    | ⟨0, _⟩ => show win0_3.index t (0 : Fin 2) * 512 + 1 * o.val = o.val; omega
    | ⟨1, _⟩ => show win0_3.index t (1 : Fin 2) * 512 + 1 * k.val = k.val; omega
  · show V m c main_arg4 (((cfg0.win 4).blk t).view.emb (ix2 (0 : Fin 1) k)) = V m c main_arg4 (ix2 (0 : Fin 1) k)
    refine congrArg (V m c main_arg4) (funext fun a => Fin.ext ?_)
    match a with
    | ⟨0, _⟩ => show win0_4.index t (0 : Fin 2) * 1 + 1 * 0 = 0; omega
    | ⟨1, _⟩ => show win0_4.index t (1 : Fin 2) * 512 + 1 * k.val = k.val; omega
  · show V m c main_arg5 (((cfg0.win 5).blk t).view.emb (ix2 j k)) = V m c main_arg5 (ix2 j k)
    refine congrArg (V m c main_arg5) (funext fun a => Fin.ext ?_)
    match a with
    | ⟨0, _⟩ => show win0_5.index t (0 : Fin 2) * 2 + 1 * j.val = j.val; omega
    | ⟨1, _⟩ => show win0_5.index t (1 : Fin 2) * 512 + 1 * k.val = k.val; omega

/-- An index of the result is in point `t`'s block iff each coordinate is in the block's range on its axis. -/
theorem mem_blk (t : Fin cfg0.N) (i : S2048x2.Idx) :
    i ∈ ((cfg0.win 6).blk t).view.set ↔ ∀ a : Fin 2, win0_6.index t a * S16x2.size a ≤ (i a).val ∧ (i a).val < win0_6.index t a * S16x2.size a + S16x2.size a := by
  show i ∈ ((View.whole main_v1).slice (win0_6.rect t)).set ↔ _
  rw [View.set_slice_whole, Rect.mem_set_unit]
  exact Iff.rfl

/-- The 128 blocks tile the result: row `r` lies in the block of point `r / 16`. -/
theorem cover (i : S2048x2.Idx) : ∃ t : Fin cfg0.N, (cfg0.win 6).flush t = true ∧ i ∈ ((cfg0.win 6).blk t).view.set := by
  have hi0 : (i 0).val < 2048 := (i 0).isLt
  have hi1 : (i 1).val < 2 := (i 1).isLt
  have hN : grid0.N = 128 := N_0
  have hlt : (i 0).val / 16 < grid0.N := by omega
  obtain ⟨h60, h61, -⟩ := idx_facts ⟨(i 0).val / 16, hlt⟩
  refine ⟨⟨(i 0).val / 16, hlt⟩, flush0_6 _, ?_⟩
  rw [mem_blk]
  intro a
  match a with
  | ⟨0, _⟩ =>
    show win0_6.index ⟨(i 0).val / 16, hlt⟩ (0 : Fin 2) * 16 ≤ (i 0).val ∧ (i 0).val < win0_6.index ⟨(i 0).val / 16, hlt⟩ (0 : Fin 2) * 16 + 16
    have : win0_6.index ⟨(i 0).val / 16, hlt⟩ (0 : Fin 2) = (i 0).val / 16 := h60
    omega
  | ⟨1, _⟩ =>
    show win0_6.index ⟨(i 0).val / 16, hlt⟩ (1 : Fin 2) * 2 ≤ (i 1).val ∧ (i 1).val < win0_6.index ⟨(i 0).val / 16, hlt⟩ (1 : Fin 2) * 2 + 2
    omega

/-- The region finds the memory's weight itself in the converted buffer: the conversion is the identity on exact values. -/
theorem V_main_v0 (c : Dev nD) :
    (V m c main_v0 : S512x512.Idx → EReal) = (m ((c : Thread nD τ).loc main_arg2) : S512x512.Idx → EReal) := by
  have e : (V m c main_v0 : S512x512.Idx → EReal)
      = truncf (F := Ideal) .bf16 (m ((c : Thread nD τ).loc main_arg2) : FVec Ideal S512x512 .f32) bitsLt_bf16_f32 := by
    dsimp only [Gen.V, Gen.hostOps0]; after_results
  rw [e]; rfl

/-- THE ARRAY after the run: the whole-array function of the argument arrays as launched. -/
theorem final (c : Dev nD) :
    (dats m 0 c).arrAt 6 cfg0.N = whole (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) := by
  rw [(dats m 0 c).arrAt_eq_of_cover 6 _ (fun t _ => flushed_eq m c t) cover, V_main_v0, V_main_arg0, V_main_arg1, V_main_arg3,
    V_main_arg4, V_main_arg5]

/-- The frame run re-posted: the result array at the whole-array function of the arguments, the arguments unchanged. -/
theorem run : θ_run defs (onTc (τ := τ) (main (F := Ideal))) ⟨m, fun _ => 0, ρ⟩ fun r => ∀ c : Dev nD,
      r.2.mem ((c : Thread nD τ).loc main_v1) = whole (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.ArrayValue

end
-- ==== Proof.RefScore.lean ====
/-
  The reference's first stages read at coordinates: batch row `b` of its hidden layer, of its attention logits and of
  their maximum are the specification's `hidden`, `score` and shifted maximum of row `b` of the inputs. The reference
  keeps a trailing unit axis on the logits (`[2048, 200, 1]`); its coordinate is always `0`.
-/
import proofs.«174653_j28716151341088_2_alg».proof.Proof.Gen.ReferenceIdeal.Read
import proofs.«174653_j28716151341088_2_alg».proof.Proof.Spec
import Idealize.ShloMosaic.PureOps.Reduce

noncomputable section

namespace Cert.ReferenceIdeal.RowValue

open Cert.ReferenceIdeal Cert.ReferenceIdeal.Gen Cert.ReferenceIdeal.Read Idealize.ShloMosaic Idealize.ShloMosaic.ValueIdx
open Cert.Spec

variable (x0 : (⟨S2048x200x512, .f32⟩ : BufTy).Contents (Elt Ideal)) (x1 : (⟨S2048x512, .f32⟩ : BufTy).Contents (Elt Ideal))
  (x2 x3 : (⟨S512x512, .f32⟩ : BufTy).Contents (Elt Ideal)) (x4 : (⟨S1x512, .f32⟩ : BufTy).Contents (Elt Ideal))
  (x5 : (⟨S2x512, .f32⟩ : BufTy).Contents (Elt Ideal))

/-! ## The inputs' rows and the weights as plain families -/

/-- Batch row `b` of the memory. -/
abbrev rowA (b : Fin 2048) : Fin 200 → Fin 512 → EReal := fun s k => x0 (ix3 b s k)
/-- Batch row `b` of the last vectors. -/
abbrev rowL (b : Fin 2048) : Fin 512 → EReal := fun k => x1 (ix2 b k)
/-- The memory's weight. -/
abbrev matU : Fin 512 → Fin 512 → EReal := fun o k => x2 (ix2 o k)
/-- The last vector's weight. -/
abbrev matW : Fin 512 → Fin 512 → EReal := fun o k => x3 (ix2 o k)
/-- The score vector. -/
abbrev vecV : Fin 512 → EReal := fun k => x4 (ix2 (0 : Fin 1) k)
/-- The gate weight. -/
abbrev matE : Fin 2 → Fin 512 → EReal := fun j k => x5 (ix2 j k)

/-- The hidden layer at `(b, s, o)`. -/
theorem hidden_apply (b : Fin 2048) (s : Fin 200) (o : Fin 512) :
    val_main_v5 (F := Ideal) x0 x1 x2 x3 (ix3 b s o) = hidden (rowA x0 b) (rowL x1 b) (matU x2) (matW x3) s o := by
  have e0l : ∀ k : Fin 512, lidx_main_v0 (ix3 b s o) k = ix3 b s k := fun k => funext fun a => Fin.ext (by
    match a with | ⟨0, _⟩ => rfl | ⟨1, _⟩ => rfl | ⟨2, _⟩ => rfl)
  have e0r : ∀ k : Fin 512, ridx_main_v0 (ix3 b s o) k = ix2 o k := fun k => funext fun a => Fin.ext (by
    match a with | ⟨0, _⟩ => rfl | ⟨1, _⟩ => rfl)
  have e3 : idx_main_v2 (idx_main_v3 (ix3 b s o)) = ix2 b o := funext fun a => Fin.ext (by
    match a with | ⟨0, _⟩ => rfl | ⟨1, _⟩ => rfl)
  have e1l : ∀ k : Fin 512, lidx_main_v1 (ix2 b o) k = ix2 b k := fun k => funext fun a => Fin.ext (by
    match a with | ⟨0, _⟩ => rfl | ⟨1, _⟩ => rfl)
  have e1r : ∀ k : Fin 512, ridx_main_v1 (ix2 b o) k = ix2 o k := fun k => funext fun a => Fin.ext (by
    match a with | ⟨0, _⟩ => rfl | ⟨1, _⟩ => rfl)
  rw [val_main_v5_apply, val_main_v4_apply, val_main_v0_apply, val_main_v3_apply, val_main_v2_apply, e3, val_main_v1_apply]
  simp only [e0l, e0r, e1l, e1r]
  rfl

/-- The attention logit at `(b, s)` (the unit axis's coordinate is `0`). -/
theorem score_apply (b : Fin 2048) (s : Fin 200) :
    val_main_v6 (F := Ideal) x0 x1 x2 x3 x4 (ix3 b s (0 : Fin 1)) = score (rowA x0 b) (rowL x1 b) (matU x2) (matW x3) (vecV x4) s := by
  have el : ∀ k : Fin 512, lidx_main_v6 (ix3 b s (0 : Fin 1)) k = ix3 b s k := fun k => funext fun a => Fin.ext (by
    match a with | ⟨0, _⟩ => rfl | ⟨1, _⟩ => rfl | ⟨2, _⟩ => rfl)
  have er : ∀ k : Fin 512, ridx_main_v6 (ix3 b s (0 : Fin 1)) k = ix2 (0 : Fin 1) k := fun k => funext fun a => Fin.ext (by
    match a with | ⟨0, _⟩ => rfl | ⟨1, _⟩ => rfl)
  rw [val_main_v6_apply]
  simp only [el, er, hidden_apply]
  rfl

/-- The shifted maximum of row `b`'s logits: `max (−∞)` of the fold of `max` from `−∞`. -/
theorem max_apply (b : Fin 2048) :
    val_main_v9 (F := Ideal) x0 x1 x2 x3 x4 (ix2 b (0 : Fin 1))
      = max negInf ((Finset.univ : Finset (Fin 200)).fold max negInf (score (rowA x0 b) (rowL x1 b) (matU x2) (matW x3) (vecV x4))) := by
  have hR : S2048x200x1.Reduces [(1 : Fin 3)] S2048x1 := by decide
  rw [val_main_v9_apply, val_main_v8_apply, val_main_cst_0_apply]
  unfold val_main_v7
  rw [Host.reduce_eq_fold_single FloatOps.maximumf _ _ reducesTo_S2048x200x1_S2048x1_d1 hR h_S_]
  refine congrArg (max negInf) (congrArg ((Finset.univ : Finset (Fin 200)).fold max negInf) (funext fun s => ?_))
  refine Eq.trans ?_ (score_apply x0 x1 x2 x3 x4 b s)
  exact congrArg (val_main_v6 (F := Ideal) x0 x1 x2 x3 x4) (funext fun a => Fin.ext (by
    match a with | ⟨0, _⟩ => rfl | ⟨1, _⟩ => rfl | ⟨2, _⟩ => rfl))

end Cert.ReferenceIdeal.RowValue

end
-- ==== Proof.RefRow.lean ====
/-
  The reference's later stages read at coordinates: the attention weights, the attended memory, the two gate logits and
  the result. Row `b` of the result is the specification's row function of row `b` of the inputs. The reference's sums
  start from the zero word (`0 + ∑`), which is the sum; its maxima start from −∞ twice, as the specification's do.
-/
import proofs.«174653_j28716151341088_2_alg».proof.Proof.RefScore

noncomputable section

namespace Cert.ReferenceIdeal.RowValue

open Cert.ReferenceIdeal Cert.ReferenceIdeal.Gen Cert.ReferenceIdeal.Read Idealize.ShloMosaic Idealize.ShloMosaic.ValueIdx
open Cert.Spec

variable (x0 : (⟨S2048x200x512, .f32⟩ : BufTy).Contents (Elt Ideal)) (x1 : (⟨S2048x512, .f32⟩ : BufTy).Contents (Elt Ideal))
  (x2 x3 : (⟨S512x512, .f32⟩ : BufTy).Contents (Elt Ideal)) (x4 : (⟨S1x512, .f32⟩ : BufTy).Contents (Elt Ideal))
  (x5 : (⟨S2x512, .f32⟩ : BufTy).Contents (Elt Ideal))

/-- The shifted exponential of the logit at `(b, s)`. -/
theorem exp_apply (b : Fin 2048) (s : Fin 200) :
    val_main_v13 (F := Ideal) x0 x1 x2 x3 x4 (ix3 b s (0 : Fin 1))
      = Ideal.exp (score (rowA x0 b) (rowL x1 b) (matU x2) (matW x3) (vecV x4) s
          - max negInf ((Finset.univ : Finset (Fin 200)).fold max negInf (score (rowA x0 b) (rowL x1 b) (matU x2) (matW x3) (vecV x4)))) := by
  have e11 : idx_main_v10 (idx_main_v11 (ix3 b s (0 : Fin 1))) = ix2 b (0 : Fin 1) := funext fun a => Fin.ext (by
    match a with | ⟨0, _⟩ => rfl | ⟨1, _⟩ => rfl)
  rw [val_main_v13_apply, val_main_v12_apply, val_main_v11_apply, val_main_v10_apply, e11, max_apply, score_apply]
  rfl

/-- The attention weight at `(b, s)`. -/
theorem attn_apply (b : Fin 2048) (s : Fin 200) :
    val_main_v17 (F := Ideal) x0 x1 x2 x3 x4 (ix3 b s (0 : Fin 1))
      = softmax (score (rowA x0 b) (rowL x1 b) (matU x2) (matW x3) (vecV x4)) s := by
  have e16 : idx_main_v15 (idx_main_v16 (ix3 b s (0 : Fin 1))) = ix2 b (0 : Fin 1) := funext fun a => Fin.ext (by
    match a with | ⟨0, _⟩ => rfl | ⟨1, _⟩ => rfl)
  have e14 : ∀ k : Fin 200, idx_main_v14 (ix2 b (0 : Fin 1)) k = ix3 b k (0 : Fin 1) := fun k => funext fun a => Fin.ext (by
    match a with | ⟨0, _⟩ => rfl | ⟨1, _⟩ => rfl | ⟨2, _⟩ => rfl)
  rw [val_main_v17_apply, val_main_v16_apply, val_main_v15_apply, e16, val_main_v14_apply, val_main_cst_1_apply]
  simp only [e14, exp_apply, Ideal.ofBits_def, Ideal.ofBits_zero_f32, zero_add]
  rfl

/-- The attended memory at `(b, z)`. -/
theorem ctx_apply (b : Fin 2048) (z : Fin 512) :
    val_main_v20 (F := Ideal) x0 x1 x2 x3 x4 (ix2 b z) = context (rowA x0 b) (rowL x1 b) (matU x2) (matW x3) (vecV x4) z := by
  have e20 : ∀ k : Fin 200, idx_main_v20 (ix2 b z) k = ix3 b k z := fun k => funext fun a => Fin.ext (by
    match a with | ⟨0, _⟩ => rfl | ⟨1, _⟩ => rfl | ⟨2, _⟩ => rfl)
  have e18 : ∀ k : Fin 200, idx_main_v18 (ix3 b k z) = ix3 b k (0 : Fin 1) := fun k => funext fun a => Fin.ext (by
    match a with | ⟨0, _⟩ => rfl | ⟨1, _⟩ => rfl | ⟨2, _⟩ => rfl)
  have hterm : ∀ k : Fin 200, val_main_v19 (F := Ideal) x0 x1 x2 x3 x4 (ix3 b k z)
      = softmax (score (rowA x0 b) (rowL x1 b) (matU x2) (matW x3) (vecV x4)) k * x0 (ix3 b k z) := by
    intro k
    rw [val_main_v19_apply, val_main_v18_apply, e18, attn_apply]
    rfl
  rw [val_main_v20_apply, val_main_cst_2_apply]
  simp only [e20, hterm, Ideal.ofBits_def, Ideal.ofBits_zero_f32, zero_add]
  rfl

/-- The gate logit at `(b, j)`. -/
theorem logit_apply (b : Fin 2048) (j : Fin 2) :
    val_main_v21 (F := Ideal) x0 x1 x2 x3 x4 x5 (ix2 b j)
      = logit (rowA x0 b) (rowL x1 b) (matU x2) (matW x3) (vecV x4) (matE x5) j := by
  have el : ∀ k : Fin 512, lidx_main_v21 (ix2 b j) k = ix2 b k := fun k => funext fun a => Fin.ext (by
    match a with | ⟨0, _⟩ => rfl | ⟨1, _⟩ => rfl)
  have er : ∀ k : Fin 512, ridx_main_v21 (ix2 b j) k = ix2 j k := fun k => funext fun a => Fin.ext (by
    match a with | ⟨0, _⟩ => rfl | ⟨1, _⟩ => rfl)
  rw [val_main_v21_apply]
  simp only [el, er, ctx_apply]
  rfl

/-- The shifted maximum of row `b`'s two gate logits. -/
theorem lmax_apply (b : Fin 2048) :
    val_main_v24 (F := Ideal) x0 x1 x2 x3 x4 x5 (ix1 b)
      = max negInf ((Finset.univ : Finset (Fin 2)).fold max negInf (logit (rowA x0 b) (rowL x1 b) (matU x2) (matW x3) (vecV x4) (matE x5))) := by
  have hR : S2048x2.Reduces [(1 : Fin 2)] S2048 := by decide
  rw [val_main_v24_apply, val_main_v23_apply, val_main_cst_4_apply]
  unfold val_main_v22
  rw [Host.reduce_eq_fold_single FloatOps.maximumf _ _ reducesTo_S2048x2_S2048_d1 hR h_S_]
  refine congrArg (max negInf) (congrArg ((Finset.univ : Finset (Fin 2)).fold max negInf) (funext fun k => ?_))
  refine Eq.trans ?_ (logit_apply x0 x1 x2 x3 x4 x5 b k)
  exact congrArg (val_main_v21 (F := Ideal) x0 x1 x2 x3 x4 x5) (funext fun a => Fin.ext (by
    match a with | ⟨0, _⟩ => rfl | ⟨1, _⟩ => rfl))

/-- The shifted exponential of the gate logit at `(b, j)`. -/
theorem lexp_apply (b : Fin 2048) (j : Fin 2) :
    val_main_v28 (F := Ideal) x0 x1 x2 x3 x4 x5 (ix2 b j)
      = Ideal.exp (logit (rowA x0 b) (rowL x1 b) (matU x2) (matW x3) (vecV x4) (matE x5) j
          - max negInf ((Finset.univ : Finset (Fin 2)).fold max negInf (logit (rowA x0 b) (rowL x1 b) (matU x2) (matW x3) (vecV x4) (matE x5)))) := by
  have e26 : idx_main_v25 (idx_main_v26 (ix2 b j)) = ix1 b := funext fun a => Fin.ext (by
    match a with | ⟨0, _⟩ => rfl)
  rw [val_main_v28_apply, val_main_v27_apply, val_main_v26_apply, val_main_v25_apply, e26, lmax_apply, logit_apply]
  rfl

/-- THE REFERENCE'S RESULT at `(b, j)` is the specification's row function of row `b` of the inputs. -/
theorem out_apply (b : Fin 2048) (j : Fin 2) :
    val_main_v32 (F := Ideal) x0 x1 x2 x3 x4 x5 (ix2 b j)
      = row (rowA x0 b) (rowL x1 b) (matU x2) (matW x3) (vecV x4) (matE x5) j := by
  have e31 : idx_main_v30 (idx_main_v31 (ix2 b j)) = ix1 b := funext fun a => Fin.ext (by
    match a with | ⟨0, _⟩ => rfl)
  have e29 : ∀ k : Fin 2, idx_main_v29 (ix1 b) k = ix2 b k := fun k => funext fun a => Fin.ext (by
    match a with | ⟨0, _⟩ => rfl | ⟨1, _⟩ => rfl)
  rw [val_main_v32_apply, val_main_v31_apply, val_main_v30_apply, e31, val_main_v29_apply, val_main_cst_5_apply]
  simp only [e29, lexp_apply, Ideal.ofBits_def, Ideal.ofBits_zero_f32, zero_add]
  rfl

end Cert.ReferenceIdeal.RowValue

end
-- ==== Proof.RefWhole.lean ====
/-
  The reference's result array is the specification's whole-array function of its six arguments.
-/
import proofs.«174653_j28716151341088_2_alg».proof.Proof.RefRow
import proofs.«174653_j28716151341088_2_alg».proof.Proof.SpecArray

noncomputable section

namespace Cert.ReferenceIdeal.RowValue

open Cert.ReferenceIdeal Cert.ReferenceIdeal.Gen Cert.ReferenceIdeal.Read Idealize.ShloMosaic Idealize.ShloMosaic.ValueIdx
open Cert.Spec

variable (x0 : (⟨S2048x200x512, .f32⟩ : BufTy).Contents (Elt Ideal)) (x1 : (⟨S2048x512, .f32⟩ : BufTy).Contents (Elt Ideal))
  (x2 x3 : (⟨S512x512, .f32⟩ : BufTy).Contents (Elt Ideal)) (x4 : (⟨S1x512, .f32⟩ : BufTy).Contents (Elt Ideal))
  (x5 : (⟨S2x512, .f32⟩ : BufTy).Contents (Elt Ideal))

/-- Entry by entry, the reference's last stage is the row function of the entry's batch row. -/
theorem result_eq_whole : val_main_v32 (F := Ideal) x0 x1 x2 x3 x4 x5 = whole x0 x1 x2 x3 x4 x5 := by
  funext i
  obtain ⟨b, j, rfl⟩ : ∃ (b : Fin 2048) (j : Fin 2), i = ix2 b j := ⟨i 0, i 1, eq_ix2 i⟩
  exact out_apply x0 x1 x2 x3 x4 x5 b j

end Cert.ReferenceIdeal.RowValue

end
-- ==== Proof.lean ====
/-
  Additive attention over a memory of 200 vectors per batch row, followed by a two-way softmax gate, computed two ways.

  For each of 2048 batch rows, with memory `a : 200 × 512`, last vector `l : 512` and weights `U, W : 512 × 512`,
  `v : 512`, `e : 2 × 512`: the hidden layer `tanh (a Uᵀ + l Wᵀ)`, one logit per position against `v`, the softmax of
  the 200 logits, the memory averaged by those weights, two gate logits against `e`, and their softmax — the row
  function of Proof/Spec.lean, whose whole-array form is `Cert.Spec.whole` (Proof/SpecArray.lean).

  The kernel computes 16 rows per grid point: it flattens the block's memory to 3200 rows for one matrix product
  (after a format change that is the identity on exact values), regroups, and takes the sums over the lane and the
  sequence axes by reductions; its value at a block entry is the row function of the block's own row
  (Proof/KerDots.lean, KerStages.lean, KerBlock.lean), the 128 blocks tile the result, and the weight converted on the
  host before the region is the weight itself (Proof/Final.lean). The reference computes all 2048 rows at once with
  contractions and keep-dimension broadcasts; its result at an entry is the same row function of the entry's batch row
  (Proof/RefScore.lean, RefRow.lean, RefWhole.lean). The two differ only in how the same sums, maxima and quotients
  are laid out, so the results agree on every extended-real input: the precondition is not used for the values.
  The three frames are the generated frame runs; the idealization rewrote nothing, so its claim is trivial.
-/
import proofs.«174653_j28716151341088_2_alg».proof.Defs
import proofs.«174653_j28716151341088_2_alg».proof.Proof.Gen.Kernel
import proofs.«174653_j28716151341088_2_alg».proof.Proof.Gen.Kernel.Skeleton
import proofs.«174653_j28716151341088_2_alg».proof.Proof.Gen.Kernel.Launch
import proofs.«174653_j28716151341088_2_alg».proof.Proof.Gen.Kernel.Points
import proofs.«174653_j28716151341088_2_alg».proof.Proof.Gen.Kernel.Frame
import proofs.«174653_j28716151341088_2_alg».proof.Proof.Gen.KernelIdeal
import proofs.«174653_j28716151341088_2_alg».proof.Proof.Gen.KernelIdeal.Skeleton
import proofs.«174653_j28716151341088_2_alg».proof.Proof.Gen.KernelIdeal.Launch
import proofs.«174653_j28716151341088_2_alg».proof.Proof.Gen.KernelIdeal.Points
import proofs.«174653_j28716151341088_2_alg».proof.Proof.Gen.KernelIdeal.Frame
import proofs.«174653_j28716151341088_2_alg».proof.Proof.Gen.ReferenceIdeal
import proofs.«174653_j28716151341088_2_alg».proof.Proof.Gen.Pre_finite_inputs
import proofs.«174653_j28716151341088_2_alg».proof.Proof.Gen.KernelIdeal.Value
import proofs.«174653_j28716151341088_2_alg».proof.Proof.Gen.ReferenceIdeal.Run
import proofs.«174653_j28716151341088_2_alg».proof.Proof.Gen.ReferenceIdeal.Read
import proofs.«174653_j28716151341088_2_alg».proof.Proof.Final
import proofs.«174653_j28716151341088_2_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame run. -/
theorem frame_k : Cert.frame_Kernel := fun m ρ _ => Cert.Kernel.Gen.frame m ρ

/-- So does the kernel read at the exact values. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the exact reading. -/
theorem preserves : Cert.preserves_Kernel_KernelIdeal := trivial

/-- Both programs end with the specification's whole-array function of their (agreeing) arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RowValue.result_eq_whole, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
